-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1025 : Shape := ⟨2, ![8192, 1025]⟩
abbrev S8192x1024 : Shape := ⟨2, ![8192, 1024]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S8192x1025 : S_.BroadcastsInDim S8192x1025 (![] : Fin 0 → Fin S8192x1025.rank)
  reducesTo_S8192x1025_S_d0_1 : S8192x1025.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x1024 .f32) (main_arg6 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1025 .f32) (main_arg1 : FVec F S8192x1024 .f32) (main_arg2 : FVec F S8192x1024 .f32) (main_arg3 : FVec F S4096x2048 .f32) (main_arg4 : FVec F S4096 .f32) (main_arg5 : FVec F S1024x1024 .f32) (main_arg6 : FVec F S1024 .f32) : IVec S_ 1 :=
  let main_v0 : FVec F S8192x1025 .f32 := Host.absf main_arg0
  let main_cst : FVec F S_ .f32 := constant S_ .f32 0x7F800000#32
  let main_v1 : FVec F S8192x1025 .f32 := broadcastInDim S8192x1025 ![] bcast_S_S8192x1025 main_cst
  let main_v2 : IVec S8192x1025 1 := cmpf .olt main_v0 main_v1
  let main_c : IVec S_ 1 := constantI S_ 1 1#1
  let main_v3 : IVec S_ 1 := (fun x v => Host.reduce IntOp.andi x v reducesTo_S8192x1025_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S8192x1025 : Shape := ⟨2, ![8192, 1025]⟩
abbrev S8192x1024 : Shape := ⟨2, ![8192, 1024]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S1x1024 : Shape := ⟨2, ![1, 1024]⟩
abbrev S2048x4096 : Shape := ⟨2, ![2048, 4096]⟩
abbrev S1x4096 : Shape := ⟨2, ![1, 4096]⟩
abbrev S256x1025 : Shape := ⟨2, ![256, 1025]⟩
abbrev S256x1024 : Shape := ⟨2, ![256, 1024]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1025, .f32⟩
  | .hbm, ⟨1, _⟩ => ⟨S8192x1024, .f32⟩
  | .hbm, ⟨2, _⟩ => ⟨S8192x1024, .f32⟩
  | .hbm, ⟨3, _⟩ => ⟨S4096x2048, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S2048x4096, .f32⟩
  | .hbm, ⟨11, _⟩ => ⟨S2048x4096, .bf16⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1025, .f32⟩
  | .local _ .vmem, ⟨1, _⟩ => ⟨S256x1025, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S2048x4096, .bf16⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8192x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  transposes_S4096x2048_S2048x4096_1_0 : S4096x2048.Transposes [1, 0] S2048x4096
  shapeCasts_S4096_S1x4096 : S4096.ShapeCasts S1x4096
  inb_S256x1025_S256x1024_0_0 : ∀ a, (![0, 0] : Fin 2 → Nat) a + S256x1024.size a ≤ S256x1025.size a
  h_S256x1024 : 0 < S256x1024.numel
  inb_S256x1025_S256x1_0_1024 : ∀ a, (![0, 1024] : Fin 2 → Nat) a + S256x1.size a ≤ S256x1025.size a
  h_S256x1 : 0 < S256x1.numel
  inb_S256x1024_S256x1024_0_0 : ∀ a, (![0, 0] : Fin 2 → Nat) a + S256x1024.size a ≤ S256x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  broadcasts_S256x1_S256x1024 : S256x1.Broadcasts S256x1024
  inb_S2048x4096_S1024x1024_0_0 : ∀ a, (![0, 0] : Fin 2 → Nat) a + S1024x1024.size a ≤ S2048x4096.size a
  inb_S2048x4096_S1024x1024_1024_0 : ∀ a, (![1024, 0] : Fin 2 → Nat) a + S1024x1024.size a ≤ S2048x4096.size a
  inb_S1x4096_S1x1024_0_0 : ∀ a, (![0, 0] : Fin 2 → Nat) a + S1x1024.size a ≤ S1x4096.size a
  inb_S2048x4096_S1024x1024_0_1024 : ∀ a, (![0, 1024] : Fin 2 → Nat) a + S1024x1024.size a ≤ S2048x4096.size a
  inb_S2048x4096_S1024x1024_1024_1024 : ∀ a, (![1024, 1024] : Fin 2 → Nat) a + S1024x1024.size a ≤ S2048x4096.size a
  inb_S1x4096_S1x1024_0_1024 : ∀ a, (![0, 1024] : Fin 2 → Nat) a + S1x1024.size a ≤ S1x4096.size a
  inb_S2048x4096_S1024x1024_0_2048 : ∀ a, (![0, 2048] : Fin 2 → Nat) a + S1024x1024.size a ≤ S2048x4096.size a
  inb_S2048x4096_S1024x1024_1024_2048 : ∀ a, (![1024, 2048] : Fin 2 → Nat) a + S1024x1024.size a ≤ S2048x4096.size a
  inb_S1x4096_S1x1024_0_2048 : ∀ a, (![0, 2048] : Fin 2 → Nat) a + S1x1024.size a ≤ S1x4096.size a
  inb_S2048x4096_S1024x1024_0_3072 : ∀ a, (![0, 3072] : Fin 2 → Nat) a + S1024x1024.size a ≤ S2048x4096.size a
  inb_S2048x4096_S1024x1024_1024_3072 : ∀ a, (![1024, 3072] : Fin 2 → Nat) a + S1024x1024.size a ≤ S2048x4096.size a
  inb_S1x4096_S1x1024_0_3072 : ∀ a, (![0, 3072] : Fin 2 → Nat) a + S1x1024.size a ≤ S1x4096.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1025.size a ≤ S8192x1025.size a
  hwx0_0 : ∀ i : grid0.Coords, EltTy.bits .f32 = 32 ∨ (Rect.block (s := S8192x1025) S256x1025.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x4096.size a ≤ S2048x4096.size a
  hwx0_5 : ∀ i : grid0.Coords, EltTy.bits .bf16 = 32 ∨ (Rect.block (s := S2048x4096) S2048x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1025.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1025 : Shape := ⟨2, ![8192, 1025]⟩
abbrev S8192x1024 : Shape := ⟨2, ![8192, 1024]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S8192x1 : Shape := ⟨2, ![8192, 1]⟩
abbrev S_ : Shape := ⟨0, ![]⟩
abbrev S1x1024 : Shape := ⟨2, ![1, 1024]⟩
abbrev S8192x2048 : Shape := ⟨2, ![8192, 2048]⟩
abbrev S2048x4096 : Shape := ⟨2, ![2048, 4096]⟩
abbrev S8192x4096 : Shape := ⟨2, ![8192, 4096]⟩
abbrev S1x4096 : Shape := ⟨2, ![1, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8192x1025, .f32⟩
  | .hbm, ⟨1, _⟩ => ⟨S8192x1024, .f32⟩
  | .hbm, ⟨2, _⟩ => ⟨S8192x1024, .f32⟩
  | .hbm, ⟨3, _⟩ => ⟨S4096x2048, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S1024x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S2048x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  slices_S8192x1025_S8192x1024_0_0 : S8192x1025.Slices ![0, 0] S8192x1024
  slices_S8192x1025_S8192x1_0_1024 : S8192x1025.Slices ![0, 1024] S8192x1
  bcast_S_S8192x1 : S_.BroadcastsInDim S8192x1 (![] : Fin 0 → Fin S8192x1.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1_S8192x1024_0_1 : S8192x1.BroadcastsInDim S8192x1024 (![0, 1] : Fin 2 → Fin S8192x1024.rank)
  concatenates_S8192x1024_S8192x1024_S8192x2048_d1 : Shape.Concatenates [S8192x1024, S8192x1024] S8192x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []
  dot_S8192x2048_S2048x4096_S8192x4096_1_0_0_1_n_n_wf : DotDims.WF S8192x2048 S2048x4096 S8192x4096 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Spec.lean ====
/-
  The time-decay gated memory cell, one output entry at a time, on the extended reals.

  A row of the batch carries an input row `x` (1024 entries), an elapsed time `d`, a hidden row `h` and a cell row.
  The short-term part of the hidden row is `s = tanh (h · Wdᵀ + bd)`; the elapsed time discounts it by
  `T = 1 / log (d + e)` (`e` the constant 2.7183 as a float word), giving the adjusted row `a = h − s + T · s`.
  The four gates are the columns of `[x, a] · Wlᵀ + bl`; the contraction over the 2048 joined entries is written
  here as the sum over the 1024 entries of `x` plus the sum over the 1024 entries of `a`. Then
  `c' = σ(gate₁) · c + σ(gate₀) · tanh(gate₃)` and `h' = σ(gate₂) · tanh(c')`.

  `sum_join` is the one law the two programs differ by: a sum over the joined row is the sum of the sums over its
  two halves. It regroups terms of a finite sum in a commutative monoid, so no entry has to be finite.
-/
import Idealize.ShloMosaic.PureOps.Ideal
import Idealize.ShloMosaic.PureOps.Ideal.Laws
import Idealize.ShloMosaic.Lib.ValueIdx

noncomputable section

namespace Cert.Tlstm

open Idealize.ShloMosaic

/-- The float word of the constant 2.7183. -/
def eWord : EReal := Ideal.ofBits .f32 0x402DF8A1#32

/-- The float word of 1.0. -/
def oneWord : EReal := Ideal.ofBits .f32 0x3F800000#32

/-- The discount of the short-term memory after an elapsed time `d`: `1 / log (d + e)`. -/
def decay (d : EReal) : EReal := Ideal.div oneWord (Ideal.log (d + eWord))

/-- The short-term memory of a hidden row: `tanh (h · Wdᵀ + bd)` at column `c`. -/
def shortMem (h : Fin 1024 → EReal) (Wd : Fin 1024 → Fin 1024 → EReal) (bd : Fin 1024 → EReal) (c : Fin 1024) : EReal :=
  Ideal.tanh ((∑ k : Fin 1024, h k * Wd c k) + bd c)

/-- The hidden row with its short-term part discounted: `h − s + T · s`. -/
def adjusted (d : EReal) (h : Fin 1024 → EReal) (Wd : Fin 1024 → Fin 1024 → EReal) (bd : Fin 1024 → EReal)
    (c : Fin 1024) : EReal :=
  (h c - shortMem h Wd bd c) + decay d * shortMem h Wd bd c

/-- Column `q` of gate `s` among the 4096 gate columns. -/
def gcol (s : Fin 4) (q : Fin 1024) : Fin 4096 := ⟨s.val * 1024 + q.val, by omega⟩

/-- Entry `k` of the first half of a joined row of 2048. -/
def lo (k : Fin 1024) : Fin 2048 := ⟨k.val, by omega⟩

/-- Entry `k` of the second half of a joined row of 2048. -/
def hi (k : Fin 1024) : Fin 2048 := ⟨1024 + k.val, by omega⟩

/-- Column `k` of the input part of a 1025-wide input row. -/
def xcol (k : Fin 1024) : Fin 1025 := ⟨k.val, by omega⟩

/-- The last column of a 1025-wide input row: the elapsed time. -/
def dcol : Fin 1025 := ⟨1024, by omega⟩

/-- One gate column before its squashing: the input row against the first 1024 weights of the column, the adjusted
    row against the last 1024, plus the bias. -/
def gate (x a : Fin 1024 → EReal) (Wl : Fin 4096 → Fin 2048 → EReal) (bl : Fin 4096 → EReal) (n : Fin 4096) : EReal :=
  ((∑ k : Fin 1024, x k * Wl n (lo k)) + (∑ k : Fin 1024, a k * Wl n (hi k))) + bl n

/-- The next cell entry at column `q`. -/
def cellNext (x : Fin 1024 → EReal) (d : EReal) (h : Fin 1024 → EReal) (cv : EReal)
    (Wl : Fin 4096 → Fin 2048 → EReal) (bl : Fin 4096 → EReal) (Wd : Fin 1024 → Fin 1024 → EReal) (bd : Fin 1024 → EReal)
    (q : Fin 1024) : EReal :=
  Ideal.logistic (gate x (adjusted d h Wd bd) Wl bl (gcol 1 q)) * cv
    + Ideal.logistic (gate x (adjusted d h Wd bd) Wl bl (gcol 0 q)) * Ideal.tanh (gate x (adjusted d h Wd bd) Wl bl (gcol 3 q))

/-- The next hidden entry at column `q`. -/
def hidNext (x : Fin 1024 → EReal) (d : EReal) (h : Fin 1024 → EReal) (cv : EReal)
    (Wl : Fin 4096 → Fin 2048 → EReal) (bl : Fin 4096 → EReal) (Wd : Fin 1024 → Fin 1024 → EReal) (bd : Fin 1024 → EReal)
    (q : Fin 1024) : EReal :=
  Ideal.logistic (gate x (adjusted d h Wd bd) Wl bl (gcol 2 q)) * Ideal.tanh (cellNext x d h cv Wl bl Wd bd q)

/-- The float word of 1.0 is the number one. -/
theorem oneWord_eq : oneWord = 1 := by
  unfold oneWord
  simp [Ideal.ofBits, Ideal.ieee]
  rw [← EReal.coe_mul]
  norm_num

/-- The squashing `1 / (1 + exp (−z))` spelt with the float word of 1.0 is the logistic function. -/
theorem logistic_spelt (z : EReal) : Ideal.div oneWord (oneWord + Ideal.exp (-z)) = Ideal.logistic z := by
  rw [oneWord_eq]; rfl

/-- A sum over a joined row of 2048 entries is the sum over its first 1024 plus the sum over its last 1024. -/
theorem sum_join (f : Fin 2048 → EReal) :
    ∑ k : Fin 2048, f k = (∑ k : Fin 1024, f (lo k)) + ∑ k : Fin 1024, f (hi k) :=
  Fin.sum_univ_add (a := 1024) (b := 1024) (f : Fin (1024 + 1024) → EReal)

end Cert.Tlstm

end
-- ==== Proof.KernelBlock.lean ====
/-
  The kernel body on one block of 256 batch rows, read one entry at a time.

  The body loads a block of 256 input rows (1025 wide: 1024 inputs and the elapsed time), the matching 256 hidden and
  cell rows, and the whole weight arrays as the launch laid them out: `Wdᵀ` (1024 × 1024), `bd` as one row,
  `Wlᵀ` (2048 × 4096) and `bl` as one row. Every matrix product is taken into a zero accumulator, so entry `(p, q)`
  of a product is the plain sum over the contracted index; each gate is the product of the input rows with the upper
  1024 rows of a 1024-column slab of `Wlᵀ` plus the product of the adjusted rows with its lower 1024 rows plus the bias
  slab. Row `p` of every result reads row `p` of the three row blocks and nothing else of them: `cell_at` and
  `hid_at` say that entry `(p, q)` of the two stored blocks is the cell function of that row.
-/
import proofs.«181083_j60455959659035_2_alg».proof.Proof.Gen.KernelIdeal.Frame
import proofs.«181083_j60455959659035_2_alg».proof.Proof.Spec
import Idealize.ShloMosaic.Lib.StackMember
import Idealize.ShloMosaic.Lib.KernelVsHost
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Tlstm

/-- A 256 × 1024 by 1024 × 1024 product into the zero accumulator, at `(p, q)`: the sum over the contracted index. -/
theorem matmul_at (A : FVec Ideal S256x1024 .bf16) (B : FVec Ideal S1024x1024 .bf16) (p : Fin 256) (q : Fin 1024) :
    matmul dot_S256x1024_S1024x1024_S256x1024_1_0_0_1_n_n none A B (constant S256x1024 .f32 0x00000000#32) (ix2 p q)
      = ∑ k : Fin 1024, A (ix2 p k) * B (ix2 k q) :=
  (congrFun (matmul_zero_eq_dotGeneral (DotDims.plain 256 1024 1024) none A B) (ix2 p q)).trans
    (StackMember.dotGeneral_plain_apply none A B p q)

/-- One row broadcast down 256 rows, at `(p, q)`: the row's entry `q`. -/
theorem brow_at (v : Vec Ideal S1x1024 .f32) (p : Fin 256) (q : Fin 1024) :
    broadcastTo S256x1024 v broadcasts_S1x1024_S256x1024 (ix2 p q) = v (ix2 (0 : Fin 1) q) :=
  broadcastTo_apply v broadcasts_S1x1024_S256x1024 (ix2 p q) (ix2 (0 : Fin 1) q) (fun a => by
    match a with
    | ⟨0, _⟩ => rfl
    | ⟨1, _⟩ => rfl)

/-- One column broadcast across 1024 columns, at `(p, q)`: the column's entry `p`. -/
theorem bcol_at (v : FVec Ideal S256x1 .f32) (p : Fin 256) (q : Fin 1024) :
    broadcastTo S256x1024 v broadcasts_S256x1_S256x1024 (ix2 p q) = v (ix2 p (0 : Fin 1)) :=
  broadcastTo_apply v broadcasts_S256x1_S256x1024 (ix2 p q) (ix2 p (0 : Fin 1)) (fun a => by
    match a with
    | ⟨0, _⟩ => rfl
    | ⟨1, _⟩ => rfl)

/-- The adjusted hidden block at `(p, q)` is the adjusted row of hidden row `p` at column `q`. -/
theorem adjusted_at (v1 : Vec Ideal S256x1 .f32) (v2 : Vec Ideal S256x1024 .f32) (v10 : Vec Ideal S1024x1024 .bf16)
    (v13 : Vec Ideal S1x1024 .f32) (p : Fin 256) (q : Fin 1024) :
    k0_pay4 v1 v2 v10 v13 (ix2 p q)
      = adjusted (v1 (ix2 p (0 : Fin 1))) (fun k => v2 (ix2 p k)) (fun c k => v10 (ix2 k c)) (fun c => v13 (ix2 (0 : Fin 1) c)) q := by
  unfold k0_pay4 adjusted shortMem decay
  simp only [addf, subf, mulf, divf, truncf, Idealize.ShloMosaic.tanh, Idealize.ShloMosaic.log, broadcast, shapeCast_self]
  rw [matmul_at, brow_at, bcol_at]
  rfl

/-- The first gate's block at `(p, q)`. -/
theorem gate5_at (v0 : Vec Ideal S256x1024 .f32) (v1 : Vec Ideal S256x1 .f32) (v2 : Vec Ideal S256x1024 .f32)
    (v10 : Vec Ideal S1024x1024 .bf16) (v13 : Vec Ideal S1x1024 .f32) (v24 v27 : Vec Ideal S1024x1024 .bf16)
    (v31 : Vec Ideal S1x1024 .f32) (p : Fin 256) (q : Fin 1024) :
    k0_pay5 v0 v1 v2 v10 v13 v24 v27 v31 (ix2 p q)
      = Ideal.logistic (((∑ k : Fin 1024, v0 (ix2 p k) * v24 (ix2 k q))
          + ∑ k : Fin 1024, k0_pay4 v1 v2 v10 v13 (ix2 p k) * v27 (ix2 k q)) + v31 (ix2 (0 : Fin 1) q)) := by
  unfold k0_pay5 k0_pay3
  simp only [addf, Idealize.ShloMosaic.logistic, shapeCast_self]
  rw [matmul_at, matmul_at, brow_at]
  rfl

/-- The second gate's block at `(p, q)`. -/
theorem gate6_at (v22 v23 : FVec Ideal S256x1024 .bf16) (wa wb : Vec Ideal S1024x1024 .bf16) (vb : Vec Ideal S1x1024 .f32)
    (p : Fin 256) (q : Fin 1024) :
    k0_pay6 v22 v23 wa wb vb (ix2 p q)
      = Ideal.logistic (((∑ k : Fin 1024, v22 (ix2 p k) * wa (ix2 k q))
          + ∑ k : Fin 1024, v23 (ix2 p k) * wb (ix2 k q)) + vb (ix2 (0 : Fin 1) q)) := by
  unfold k0_pay6
  simp only [addf, Idealize.ShloMosaic.logistic, shapeCast_self]
  rw [matmul_at, matmul_at, brow_at]
  rfl

/-- The third gate's block at `(p, q)`. -/
theorem gate7_at (v22 v23 : FVec Ideal S256x1024 .bf16) (wa wb : Vec Ideal S1024x1024 .bf16) (vb : Vec Ideal S1x1024 .f32)
    (p : Fin 256) (q : Fin 1024) :
    k0_pay7 v22 v23 wa wb vb (ix2 p q)
      = Ideal.logistic (((∑ k : Fin 1024, v22 (ix2 p k) * wa (ix2 k q))
          + ∑ k : Fin 1024, v23 (ix2 p k) * wb (ix2 k q)) + vb (ix2 (0 : Fin 1) q)) := by
  unfold k0_pay7
  simp only [addf, Idealize.ShloMosaic.logistic, shapeCast_self]
  rw [matmul_at, matmul_at, brow_at]
  rfl

/-- The candidate's block at `(p, q)`. -/
theorem gate8_at (v22 v23 : FVec Ideal S256x1024 .bf16) (wa wb : Vec Ideal S1024x1024 .bf16) (vb : Vec Ideal S1x1024 .f32)
    (p : Fin 256) (q : Fin 1024) :
    k0_pay8 v22 v23 wa wb vb (ix2 p q)
      = Ideal.tanh (((∑ k : Fin 1024, v22 (ix2 p k) * wa (ix2 k q))
          + ∑ k : Fin 1024, v23 (ix2 p k) * wb (ix2 k q)) + vb (ix2 (0 : Fin 1) q)) := by
  unfold k0_pay8
  simp only [addf, Idealize.ShloMosaic.tanh, shapeCast_self]
  rw [matmul_at, matmul_at, brow_at]
  rfl

/-! ## The loads of parts of a staged block -/

theorem hz : (![0, 0] : Fin 2 → Nat) = fun _ => 0 := funext fun a => by fin_cases a <;> rfl

/-- The input part of the input block: its first 1024 columns. -/
theorem ld_x (x0 : Vec Ideal S256x1025 .f32) :
    View.ld x0 r0_0 = fun j => x0 (ix2 (j 0) (xcol (j 1))) :=
  funext fun j => congrArg x0 (funext fun a => Fin.ext (by
    match a with
    | ⟨0, _⟩ => show 0 + 1 * (j 0).val = (j 0).val; omega
    | ⟨1, _⟩ => show 0 + 1 * (j 1).val = (j 1).val; omega))

/-- The elapsed-time column of the input block: its last column. -/
theorem ld_d (x0 : Vec Ideal S256x1025 .f32) :
    View.ld x0 r0_1 = fun j => x0 (ix2 (j 0) dcol) :=
  funext fun j => congrArg x0 (funext fun a => Fin.ext (by
    match a with
    | ⟨0, _⟩ => show 0 + 1 * (j 0).val = (j 0).val; omega
    | ⟨1, _⟩ => show 1024 + 1 * (j 1).val = 1024; have h : (j 1).val < 1 := (j 1).isLt; omega))

theorem ld_w5 (x5 : Vec Ideal S2048x4096 .bf16) :
    View.ld x5 r0_5 = fun j => x5 (ix2 (lo (j 0)) (gcol 0 (j 1))) :=
  funext fun j => congrArg x5 (funext fun a => Fin.ext (by
    match a with
    | ⟨0, _⟩ => show 0 + 1 * (j 0).val = (j 0).val; omega
    | ⟨1, _⟩ => show 0 + 1 * (j 1).val = 0 * 1024 + (j 1).val; omega))

theorem ld_w6 (x5 : Vec Ideal S2048x4096 .bf16) :
    View.ld x5 r0_6 = fun j => x5 (ix2 (hi (j 0)) (gcol 0 (j 1))) :=
  funext fun j => congrArg x5 (funext fun a => Fin.ext (by
    match a with
    | ⟨0, _⟩ => show 1024 + 1 * (j 0).val = 1024 + (j 0).val; omega
    | ⟨1, _⟩ => show 0 + 1 * (j 1).val = 0 * 1024 + (j 1).val; omega))

theorem ld_w8 (x5 : Vec Ideal S2048x4096 .bf16) :
    View.ld x5 r0_8 = fun j => x5 (ix2 (lo (j 0)) (gcol 1 (j 1))) :=
  funext fun j => congrArg x5 (funext fun a => Fin.ext (by
    match a with
    | ⟨0, _⟩ => show 0 + 1 * (j 0).val = (j 0).val; omega
    | ⟨1, _⟩ => show 1024 + 1 * (j 1).val = 1 * 1024 + (j 1).val; omega))

theorem ld_w9 (x5 : Vec Ideal S2048x4096 .bf16) :
    View.ld x5 r0_9 = fun j => x5 (ix2 (hi (j 0)) (gcol 1 (j 1))) :=
  funext fun j => congrArg x5 (funext fun a => Fin.ext (by
    match a with
    | ⟨0, _⟩ => show 1024 + 1 * (j 0).val = 1024 + (j 0).val; omega
    | ⟨1, _⟩ => show 1024 + 1 * (j 1).val = 1 * 1024 + (j 1).val; omega))

theorem ld_w11 (x5 : Vec Ideal S2048x4096 .bf16) :
    View.ld x5 r0_11 = fun j => x5 (ix2 (lo (j 0)) (gcol 2 (j 1))) :=
  funext fun j => congrArg x5 (funext fun a => Fin.ext (by
    match a with
    | ⟨0, _⟩ => show 0 + 1 * (j 0).val = (j 0).val; omega
    | ⟨1, _⟩ => show 2048 + 1 * (j 1).val = 2 * 1024 + (j 1).val; omega))

theorem ld_w12 (x5 : Vec Ideal S2048x4096 .bf16) :
    View.ld x5 r0_12 = fun j => x5 (ix2 (hi (j 0)) (gcol 2 (j 1))) :=
  funext fun j => congrArg x5 (funext fun a => Fin.ext (by
    match a with
    | ⟨0, _⟩ => show 1024 + 1 * (j 0).val = 1024 + (j 0).val; omega
    | ⟨1, _⟩ => show 2048 + 1 * (j 1).val = 2 * 1024 + (j 1).val; omega))

theorem ld_w14 (x5 : Vec Ideal S2048x4096 .bf16) :
    View.ld x5 r0_14 = fun j => x5 (ix2 (lo (j 0)) (gcol 3 (j 1))) :=
  funext fun j => congrArg x5 (funext fun a => Fin.ext (by
    match a with
    | ⟨0, _⟩ => show 0 + 1 * (j 0).val = (j 0).val; omega
    | ⟨1, _⟩ => show 3072 + 1 * (j 1).val = 3 * 1024 + (j 1).val; omega))

theorem ld_w15 (x5 : Vec Ideal S2048x4096 .bf16) :
    View.ld x5 r0_15 = fun j => x5 (ix2 (hi (j 0)) (gcol 3 (j 1))) :=
  funext fun j => congrArg x5 (funext fun a => Fin.ext (by
    match a with
    | ⟨0, _⟩ => show 1024 + 1 * (j 0).val = 1024 + (j 0).val; omega
    | ⟨1, _⟩ => show 3072 + 1 * (j 1).val = 3 * 1024 + (j 1).val; omega))

theorem ld_b7 (x6 : Vec Ideal S1x4096 .f32) :
    View.ld x6 r0_7 = fun j => x6 (ix2 (0 : Fin 1) (gcol 0 (j 1))) :=
  funext fun j => congrArg x6 (funext fun a => Fin.ext (by
    match a with
    | ⟨0, _⟩ => show 0 + 1 * (j 0).val = 0; have h : (j 0).val < 1 := (j 0).isLt; omega
    | ⟨1, _⟩ => show 0 + 1 * (j 1).val = 0 * 1024 + (j 1).val; omega))

theorem ld_b10 (x6 : Vec Ideal S1x4096 .f32) :
    View.ld x6 r0_10 = fun j => x6 (ix2 (0 : Fin 1) (gcol 1 (j 1))) :=
  funext fun j => congrArg x6 (funext fun a => Fin.ext (by
    match a with
    | ⟨0, _⟩ => show 0 + 1 * (j 0).val = 0; have h : (j 0).val < 1 := (j 0).isLt; omega
    | ⟨1, _⟩ => show 1024 + 1 * (j 1).val = 1 * 1024 + (j 1).val; omega))

theorem ld_b13 (x6 : Vec Ideal S1x4096 .f32) :
    View.ld x6 r0_13 = fun j => x6 (ix2 (0 : Fin 1) (gcol 2 (j 1))) :=
  funext fun j => congrArg x6 (funext fun a => Fin.ext (by
    match a with
    | ⟨0, _⟩ => show 0 + 1 * (j 0).val = 0; have h : (j 0).val < 1 := (j 0).isLt; omega
    | ⟨1, _⟩ => show 2048 + 1 * (j 1).val = 2 * 1024 + (j 1).val; omega))

theorem ld_b16 (x6 : Vec Ideal S1x4096 .f32) :
    View.ld x6 r0_16 = fun j => x6 (ix2 (0 : Fin 1) (gcol 3 (j 1))) :=
  funext fun j => congrArg x6 (funext fun a => Fin.ext (by
    match a with
    | ⟨0, _⟩ => show 0 + 1 * (j 0).val = 0; have h : (j 0).val < 1 := (j 0).isLt; omega
    | ⟨1, _⟩ => show 3072 + 1 * (j 1).val = 3 * 1024 + (j 1).val; omega))

/-! ## The two stored blocks -/

/-- Entry `(p, q)` of the stored cell block is the next cell entry of row `p` at column `q`. -/
theorem cell_at (x0 : Vec Ideal S256x1025 .f32) (x1 x2 : Vec Ideal S256x1024 .f32) (x3 : Vec Ideal S1024x1024 .bf16)
    (x4 : Vec Ideal S1x1024 .f32) (x5 : Vec Ideal S2048x4096 .bf16) (x6 : Vec Ideal S1x4096 .f32) (p : Fin 256) (q : Fin 1024) :
    out0_8 x0 x1 x2 x3 x4 x5 x6 (ix2 p q)
      = cellNext (fun k => x0 (ix2 p (xcol k))) (x0 (ix2 p dcol)) (fun k => x1 (ix2 p k)) (x2 (ix2 p q))
          (fun n k => x5 (ix2 k n)) (fun n => x6 (ix2 (0 : Fin 1) n)) (fun c k => x3 (ix2 k c)) (fun c => x4 (ix2 (0 : Fin 1) c)) q := by
  unfold out0_8
  rw [View.canon_unit_zero hz]
  simp only [View.ld_unit_zero (S := S256x1024) hz, View.ld_unit_zero (S := S1024x1024) hz, View.ld_unit_zero (S := S1x1024) hz]
  unfold k0_pay1 cellNext gate
  simp only [addf, mulf]
  rw [gate5_at, gate6_at, gate8_at]
  simp only [k0_pay3, truncf, adjusted_at]
  rw [ld_x, ld_d, ld_w5, ld_w6, ld_w8, ld_w9, ld_w14, ld_w15, ld_b7, ld_b10, ld_b16]
  rfl

/-- Entry `(p, q)` of the stored hidden block is the next hidden entry of row `p` at column `q`. -/
theorem hid_at (x0 : Vec Ideal S256x1025 .f32) (x1 x2 : Vec Ideal S256x1024 .f32) (x3 : Vec Ideal S1024x1024 .bf16)
    (x4 : Vec Ideal S1x1024 .f32) (x5 : Vec Ideal S2048x4096 .bf16) (x6 : Vec Ideal S1x4096 .f32) (p : Fin 256) (q : Fin 1024) :
    out0_7 x0 x1 x2 x3 x4 x5 x6 (ix2 p q)
      = hidNext (fun k => x0 (ix2 p (xcol k))) (x0 (ix2 p dcol)) (fun k => x1 (ix2 p k)) (x2 (ix2 p q))
          (fun n k => x5 (ix2 k n)) (fun n => x6 (ix2 (0 : Fin 1) n)) (fun c k => x3 (ix2 k c)) (fun c => x4 (ix2 (0 : Fin 1) c)) q := by
  unfold out0_7
  rw [View.canon_unit_zero hz]
  simp only [View.ld_unit_zero (S := S256x1024) hz, View.ld_unit_zero (S := S1024x1024) hz, View.ld_unit_zero (S := S1x1024) hz]
  unfold k0_pay2 k0_pay1 hidNext cellNext gate
  simp only [addf, mulf, Idealize.ShloMosaic.tanh]
  rw [gate5_at, gate6_at, gate7_at, gate8_at]
  simp only [k0_pay3, truncf, adjusted_at]
  rw [ld_x, ld_d, ld_w5, ld_w6, ld_w8, ld_w9, ld_w11, ld_w12, ld_w14, ld_w15, ld_b7, ld_b10, ld_b13, ld_b16]
  rfl

end Cert.KernelIdeal.Block

end
-- ==== Proof.SpecArr.lean ====
/-
  The next cell and hidden arrays of the whole batch: entry `(r, q)` is the cell function of batch row `r` at column
  `q`. The weights enter as functions of their two coordinates (gate column, joined-row entry; short-term column, hidden
  entry), so that an array stored transposed or as one row is read through the same function.
-/
import proofs.«181083_j60455959659035_2_alg».proof.Proof.Spec

noncomputable section

namespace Cert.Tlstm

open Idealize.ShloMosaic Idealize.ShloMosaic.ValueIdx

/-- The batch of input rows: 8192 rows of 1024 inputs and the elapsed time. -/
abbrev SX : Shape := ⟨2, ![8192, 1025]⟩
/-- The batch of hidden (or cell) rows. -/
abbrev SH : Shape := ⟨2, ![8192, 1024]⟩

/-- The batch row of an index. -/
def rowOf (i : SH.Idx) : Fin 8192 := ⟨(i 0).val, (i 0).isLt⟩
/-- The column of an index. -/
def colOf (i : SH.Idx) : Fin 1024 := ⟨(i 1).val, (i 1).isLt⟩

/-- The next cell array. -/
def cellArr (X : SX.Idx → EReal) (H C : SH.Idx → EReal)
    (Wl : Fin 4096 → Fin 2048 → EReal) (bl : Fin 4096 → EReal) (Wd : Fin 1024 → Fin 1024 → EReal) (bd : Fin 1024 → EReal) :
    SH.Idx → EReal := fun i =>
  cellNext (fun k => X (ix2 (rowOf i) (xcol k))) (X (ix2 (rowOf i) dcol)) (fun k => H (ix2 (rowOf i) k)) (C i)
    Wl bl Wd bd (colOf i)

/-- The next hidden array. -/
def hidArr (X : SX.Idx → EReal) (H C : SH.Idx → EReal)
    (Wl : Fin 4096 → Fin 2048 → EReal) (bl : Fin 4096 → EReal) (Wd : Fin 1024 → Fin 1024 → EReal) (bd : Fin 1024 → EReal) :
    SH.Idx → EReal := fun i =>
  hidNext (fun k => X (ix2 (rowOf i) (xcol k))) (X (ix2 (rowOf i) dcol)) (fun k => H (ix2 (rowOf i) k)) (C i)
    Wl bl Wd bd (colOf i)

theorem cellArr_apply (X : SX.Idx → EReal) (H C : SH.Idx → EReal)
    (Wl : Fin 4096 → Fin 2048 → EReal) (bl : Fin 4096 → EReal) (Wd : Fin 1024 → Fin 1024 → EReal) (bd : Fin 1024 → EReal)
    (r : Fin 8192) (q : Fin 1024) :
    cellArr X H C Wl bl Wd bd (ix2 r q)
      = cellNext (fun k => X (ix2 r (xcol k))) (X (ix2 r dcol)) (fun k => H (ix2 r k)) (C (ix2 r q)) Wl bl Wd bd q := rfl

theorem hidArr_apply (X : SX.Idx → EReal) (H C : SH.Idx → EReal)
    (Wl : Fin 4096 → Fin 2048 → EReal) (bl : Fin 4096 → EReal) (Wd : Fin 1024 → Fin 1024 → EReal) (bd : Fin 1024 → EReal)
    (r : Fin 8192) (q : Fin 1024) :
    hidArr X H C Wl bl Wd bd (ix2 r q)
      = hidNext (fun k => X (ix2 r (xcol k))) (X (ix2 r dcol)) (fun k => H (ix2 r k)) (C (ix2 r q)) Wl bl Wd bd q := rfl

end Cert.Tlstm

end
-- ==== Proof.KernelArray.lean ====
/-
  From the blocks to the arrays. The grid has 32 points; point `t` stages rows `256 t … 256 t + 255` of the input,
  hidden and cell arrays and the whole of the four weight arrays, and writes back rows `256 t … 256 t + 255` of the two
  results. The weight arrays are written by the launch before the kernel: `Wdᵀ` and `Wlᵀ` are transposes (the change of
  float format is the identity on the extended reals), `bd` and `bl` are laid out as one row. Entry `(p, q)` of the
  block a point writes back is the cell function of the block's row `p`, which is row `256 t + p` of the arrays: the
  block is block `t` of the whole-array function. The 32 blocks tile the 8192 rows, so the arrays end holding it.
-/
import proofs.«181083_j60455959659035_2_alg».proof.Proof.Gen.KernelIdeal.Value
import proofs.«181083_j60455959659035_2_alg».proof.Proof.KernelBlock
import proofs.«181083_j60455959659035_2_alg».proof.Proof.SpecArr
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Cert.Tlstm
open Idealize.ShloMosaic.Pipeline (Dat)

variable (m : (ℓ : Loc nD τ sig) → Buf (Elt Ideal) ℓ) (ρ : Dev nD → PrngReg)

/-- The printed index maps over the 32 grid points: the row windows move one block per point, the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The weight arrays as the launch lays them out -/

theorem V_v1 (c : Dev nD) : @Eq (FVec Ideal S1024x1024 .bf16) (V m c main_v1)
    (truncf .bf16 (transpose S1024x1024 [1, 0] (m ((c : Thread nD τ).loc main_arg5)) transposes_S1024x1024_S1024x1024_1_0) bitsLt_bf16_f32) := by
  dsimp only [Gen.V, Gen.hostOps0]; after_results

/-- Entry `(k, q)` of the staged `Wdᵀ` is entry `(q, k)` of `Wd`. -/
theorem V_v1_at (c : Dev nD) (k q : Fin 1024) :
    V m c main_v1 (ix2 k q) = (m ((c : Thread nD τ).loc main_arg5)) (ix2 q k) := by
  rw [V_v1]
  show transpose S1024x1024 [1, 0] (m ((c : Thread nD τ).loc main_arg5)) transposes_S1024x1024_S1024x1024_1_0 (ix2 k q) = _
  exact transpose_apply [1, 0] _ transposes_S1024x1024_S1024x1024_1_0 (ix2 k q) (ix2 q k) (fun b => by
    match b with
    | ⟨0, _⟩ => rfl
    | ⟨1, _⟩ => rfl)

theorem V_v4 (c : Dev nD) : @Eq (FVec Ideal S2048x4096 .bf16) (V m c main_v4)
    (truncf .bf16 (transpose S2048x4096 [1, 0] (m ((c : Thread nD τ).loc main_arg3)) transposes_S4096x2048_S2048x4096_1_0) bitsLt_bf16_f32) := by
  dsimp only [Gen.V, Gen.hostOps0]; after_results

/-- Entry `(k, n)` of the staged `Wlᵀ` is entry `(n, k)` of `Wl`. -/
theorem V_v4_at (c : Dev nD) (k : Fin 2048) (n : Fin 4096) :
    V m c main_v4 (ix2 k n) = (m ((c : Thread nD τ).loc main_arg3)) (ix2 n k) := by
  rw [V_v4]
  show transpose S2048x4096 [1, 0] (m ((c : Thread nD τ).loc main_arg3)) transposes_S4096x2048_S2048x4096_1_0 (ix2 k n) = _
  exact transpose_apply [1, 0] _ transposes_S4096x2048_S2048x4096_1_0 (ix2 k n) (ix2 n k) (fun b => by
    match b with
    | ⟨0, _⟩ => rfl
    | ⟨1, _⟩ => rfl)

theorem V_v2 (c : Dev nD) : @Eq (FVec Ideal S1x1024 .f32) (V m c main_v2)
    (shapeCast S1x1024 (m ((c : Thread nD τ).loc main_arg6)) shapeCasts_S1024_S1x1024) := by
  dsimp only [Gen.V, Gen.hostOps0]; after_results; rfl

/-- Entry `q` of the one staged row of `bd`. -/
theorem V_v2_at (c : Dev nD) (q : Fin 1024) :
    V m c main_v2 (ix2 (0 : Fin 1) q) = (m ((c : Thread nD τ).loc main_arg6)) (ix1 q) := by
  rw [V_v2]
  exact shapeCast_apply _ shapeCasts_S1024_S1x1024 (ix2 (0 : Fin 1) q) (ix1 q) (by
    rw [Shape.rowMajor_val_two, Shape.rowMajor_val_one]; show q.val = 0 * 1024 + q.val; omega)

theorem V_v5 (c : Dev nD) : @Eq (FVec Ideal S1x4096 .f32) (V m c main_v5)
    (shapeCast S1x4096 (m ((c : Thread nD τ).loc main_arg4)) shapeCasts_S4096_S1x4096) := by
  dsimp only [Gen.V, Gen.hostOps0]; after_results; rfl

/-- Entry `n` of the one staged row of `bl`. -/
theorem V_v5_at (c : Dev nD) (n : Fin 4096) :
    V m c main_v5 (ix2 (0 : Fin 1) n) = (m ((c : Thread nD τ).loc main_arg4)) (ix1 n) := by
  rw [V_v5]
  exact shapeCast_apply _ shapeCasts_S4096_S1x4096 (ix2 (0 : Fin 1) n) (ix1 n) (by
    rw [Shape.rowMajor_val_two, Shape.rowMajor_val_one]; show n.val = 0 * 4096 + n.val; omega)

/-! ## The staged blocks read off the arrays -/

theorem rd0 (c : Dev nD) (t : Fin cfg0.N) (p : Fin 256) (k : Fin 1025) (R : Fin 8192) (hR : R.val = t.val * 256 + p.val) :
    iblk m c 0 t (ix2 p k) = V m c main_arg0 (ix2 R k) := by
  have ef := idx_facts t
  have e0 : win0_0.index t (0 : Fin 2) = t.val := by omega
  have e1 : win0_0.index t (1 : Fin 2) = 0 := by omega
  show V m c main_arg0 (((cfg0.win 0).blk t).view.emb (ix2 p k)) = V m c main_arg0 (ix2 R k)
  refine congrArg (V m c main_arg0) (funext fun a => Fin.ext ?_)
  match a with
  | ⟨0, _⟩ => show win0_0.index t (0 : Fin 2) * 256 + 1 * p.val = R.val; omega
  | ⟨1, _⟩ => show win0_0.index t (1 : Fin 2) * 1025 + 1 * k.val = k.val; omega

theorem rd1 (c : Dev nD) (t : Fin cfg0.N) (p : Fin 256) (k : Fin 1024) (R : Fin 8192) (hR : R.val = t.val * 256 + p.val) :
    iblk m c 1 t (ix2 p k) = V m c main_arg1 (ix2 R k) := by
  have ef := idx_facts t
  have e0 : win0_1.index t (0 : Fin 2) = t.val := by omega
  have e1 : win0_1.index t (1 : Fin 2) = 0 := by omega
  show V m c main_arg1 (((cfg0.win 1).blk t).view.emb (ix2 p k)) = V m c main_arg1 (ix2 R k)
  refine congrArg (V m c main_arg1) (funext fun a => Fin.ext ?_)
  match a with
  | ⟨0, _⟩ => show win0_1.index t (0 : Fin 2) * 256 + 1 * p.val = R.val; omega
  | ⟨1, _⟩ => show win0_1.index t (1 : Fin 2) * 1024 + 1 * k.val = k.val; omega

theorem rd2 (c : Dev nD) (t : Fin cfg0.N) (p : Fin 256) (k : Fin 1024) (R : Fin 8192) (hR : R.val = t.val * 256 + p.val) :
    iblk m c 2 t (ix2 p k) = V m c main_arg2 (ix2 R k) := by
  have ef := idx_facts t
  have e0 : win0_2.index t (0 : Fin 2) = t.val := by omega
  have e1 : win0_2.index t (1 : Fin 2) = 0 := by omega
  show V m c main_arg2 (((cfg0.win 2).blk t).view.emb (ix2 p k)) = V m c main_arg2 (ix2 R k)
  refine congrArg (V m c main_arg2) (funext fun a => Fin.ext ?_)
  match a with
  | ⟨0, _⟩ => show win0_2.index t (0 : Fin 2) * 256 + 1 * p.val = R.val; omega
  | ⟨1, _⟩ => show win0_2.index t (1 : Fin 2) * 1024 + 1 * k.val = k.val; omega

theorem rd3 (c : Dev nD) (t : Fin cfg0.N) : iblk m c 3 t = V m c main_v1 := by
  have ef := idx_facts t
  have e0 : win0_3.index t (0 : Fin 2) = 0 := by omega
  have e1 : win0_3.index t (1 : Fin 2) = 0 := by omega
  funext y
  show V m c main_v1 (((cfg0.win 3).blk t).view.emb y) = V m c main_v1 y
  refine congrArg (V m c main_v1) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem rd4 (c : Dev nD) (t : Fin cfg0.N) : iblk m c 4 t = V m c main_v2 := by
  have ef := idx_facts t
  have e0 : win0_4.index t (0 : Fin 2) = 0 := by omega
  have e1 : win0_4.index t (1 : Fin 2) = 0 := by omega
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem rd5 (c : Dev nD) (t : Fin cfg0.N) : iblk m c 5 t = V m c main_v4 := by
  have ef := idx_facts t
  have e0 : win0_5.index t (0 : Fin 2) = 0 := by omega
  have e1 : win0_5.index t (1 : Fin 2) = 0 := by omega
  funext y
  show V m c main_v4 (((cfg0.win 5).blk t).view.emb y) = V m c main_v4 y
  refine congrArg (V m c main_v4) (funext fun a => Fin.ext ?_)
  match a with
  | ⟨0, _⟩ => show win0_5.index t (0 : Fin 2) * 2048 + 1 * (y 0).val = (y 0).val; omega
  | ⟨1, _⟩ => show win0_5.index t (1 : Fin 2) * 4096 + 1 * (y 1).val = (y 1).val; omega

theorem rd6 (c : Dev nD) (t : Fin cfg0.N) : iblk m c 6 t = V m c main_v5 := by
  have ef := idx_facts t
  have e0 : win0_6.index t (0 : Fin 2) = 0 := by omega
  have e1 : win0_6.index t (1 : Fin 2) = 0 := by omega
  funext y
  show V m c main_v5 (((cfg0.win 6).blk t).view.emb y) = V m c main_v5 y
  refine congrArg (V m c main_v5) (funext fun a => Fin.ext ?_)
  match a with
  | ⟨0, _⟩ => show win0_6.index t (0 : Fin 2) * 1 + 1 * (y 0).val = (y 0).val; omega
  | ⟨1, _⟩ => show win0_6.index t (1 : Fin 2) * 4096 + 1 * (y 1).val = (y 1).val; omega

/-! ## The two result arrays -/

/-- The next cell array of the launch's arguments. -/
def cellOf (c : Dev nD) : S8192x1024.Idx → EReal :=
  cellArr (m ((c : Thread nD τ).loc main_arg0)) (m ((c : Thread nD τ).loc main_arg1)) (m ((c : Thread nD τ).loc main_arg2))
    (fun n k => (m ((c : Thread nD τ).loc main_arg3)) (ix2 n k)) (fun n => (m ((c : Thread nD τ).loc main_arg4)) (ix1 n))
    (fun q k => (m ((c : Thread nD τ).loc main_arg5)) (ix2 q k)) (fun q => (m ((c : Thread nD τ).loc main_arg6)) (ix1 q))

/-- The next hidden array of the launch's arguments. -/
def hidOf (c : Dev nD) : S8192x1024.Idx → EReal :=
  hidArr (m ((c : Thread nD τ).loc main_arg0)) (m ((c : Thread nD τ).loc main_arg1)) (m ((c : Thread nD τ).loc main_arg2))
    (fun n k => (m ((c : Thread nD τ).loc main_arg3)) (ix2 n k)) (fun n => (m ((c : Thread nD τ).loc main_arg4)) (ix1 n))
    (fun q k => (m ((c : Thread nD τ).loc main_arg5)) (ix2 q k)) (fun q => (m ((c : Thread nD τ).loc main_arg6)) (ix1 q))

/-- Grid point `t` writes back block `t` of the next cell array. -/
theorem flushed8_eq (c : Dev nD) (t : Fin cfg0.N) :
    (dats m 0 c).flushed 8 t = ((cfg0.win 8).blk t).view.read (Elt Ideal) (cellOf m c) := by
  rw [Value.flushed8]
  have ef := idx_facts t
  have e0 : win0_8.index t (0 : Fin 2) = t.val := by omega
  have e1 : win0_8.index t (1 : Fin 2) = 0 := by omega
  have ht : t.val < 32 := t.isLt
  funext y
  obtain ⟨p, q, rfl⟩ : ∃ (p : Fin 256) (q : Fin 1024), y = ix2 p q := ⟨y 0, y 1, eq_ix2 y⟩
  show out0_8 (iblk m c 0 t) (iblk m c 1 t) (iblk m c 2 t) (iblk m c 3 t) (iblk m c 4 t) (iblk m c 5 t) (iblk m c 6 t) (ix2 p q) = cellOf m c (((cfg0.win 8).blk t).view.emb (ix2 p q))
  have hi : ((cfg0.win 8).blk t).view.emb (ix2 p q) = ix2 (⟨t.val * 256 + p.val, by omega⟩ : Fin 8192) q :=
    funext fun a => Fin.ext (by
      match a with
      | ⟨0, _⟩ => show win0_8.index t (0 : Fin 2) * 256 + 1 * p.val = t.val * 256 + p.val; omega
      | ⟨1, _⟩ => show win0_8.index t (1 : Fin 2) * 1024 + 1 * q.val = q.val; omega)
  rw [hi]
  refine (Block.cell_at (iblk m c 0 t) (iblk m c 1 t) (iblk m c 2 t) (iblk m c 3 t) (iblk m c 4 t) (iblk m c 5 t) (iblk m c 6 t) p q).trans ?_
  unfold cellOf
  rw [cellArr_apply]
  have h0 : ∀ k : Fin 1025, iblk m c 0 t (ix2 p k) = (m ((c : Thread nD τ).loc main_arg0)) (ix2 (⟨t.val * 256 + p.val, by omega⟩ : Fin 8192) k) :=
    fun k => (rd0 m c t p k _ rfl).trans (congrFun (V_main_arg0 m c) _)
  have h1 : ∀ k : Fin 1024, iblk m c 1 t (ix2 p k) = (m ((c : Thread nD τ).loc main_arg1)) (ix2 (⟨t.val * 256 + p.val, by omega⟩ : Fin 8192) k) :=
    fun k => (rd1 m c t p k _ rfl).trans (congrFun (V_main_arg1 m c) _)
  have h2 : ∀ k : Fin 1024, iblk m c 2 t (ix2 p k) = (m ((c : Thread nD τ).loc main_arg2)) (ix2 (⟨t.val * 256 + p.val, by omega⟩ : Fin 8192) k) :=
    fun k => (rd2 m c t p k _ rfl).trans (congrFun (V_main_arg2 m c) _)
  simp only [h0, h1, h2, rd3 m c t, rd4 m c t, rd5 m c t, rd6 m c t]
  have hW5 : (fun (n : Fin 4096) (k : Fin 2048) => V m c main_v4 (ix2 k n)) = fun n k => (m ((c : Thread nD τ).loc main_arg3)) (ix2 n k) :=
    funext fun n => funext fun k => V_v4_at m c k n
  have hW6 : (fun (n : Fin 4096) => V m c main_v5 (ix2 (0 : Fin 1) n)) = fun n => (m ((c : Thread nD τ).loc main_arg4)) (ix1 n) :=
    funext fun n => V_v5_at m c n
  have hW3 : (fun (q : Fin 1024) (k : Fin 1024) => V m c main_v1 (ix2 k q)) = fun q k => (m ((c : Thread nD τ).loc main_arg5)) (ix2 q k) :=
    funext fun q => funext fun k => V_v1_at m c k q
  have hW4 : (fun (q : Fin 1024) => V m c main_v2 (ix2 (0 : Fin 1) q)) = fun q => (m ((c : Thread nD τ).loc main_arg6)) (ix1 q) :=
    funext fun q => V_v2_at m c q
  rw [hW5, hW6, hW3, hW4]

/-- Grid point `t` writes back block `t` of the next hidden array. -/
theorem flushed7_eq (c : Dev nD) (t : Fin cfg0.N) :
    (dats m 0 c).flushed 7 t = ((cfg0.win 7).blk t).view.read (Elt Ideal) (hidOf m c) := by
  rw [Value.flushed7]
  have ef := idx_facts t
  have e0 : win0_7.index t (0 : Fin 2) = t.val := by omega
  have e1 : win0_7.index t (1 : Fin 2) = 0 := by omega
  have ht : t.val < 32 := t.isLt
  funext y
  obtain ⟨p, q, rfl⟩ : ∃ (p : Fin 256) (q : Fin 1024), y = ix2 p q := ⟨y 0, y 1, eq_ix2 y⟩
  show out0_7 (iblk m c 0 t) (iblk m c 1 t) (iblk m c 2 t) (iblk m c 3 t) (iblk m c 4 t) (iblk m c 5 t) (iblk m c 6 t) (ix2 p q) = hidOf m c (((cfg0.win 7).blk t).view.emb (ix2 p q))
  have hi : ((cfg0.win 7).blk t).view.emb (ix2 p q) = ix2 (⟨t.val * 256 + p.val, by omega⟩ : Fin 8192) q :=
    funext fun a => Fin.ext (by
      match a with
      | ⟨0, _⟩ => show win0_7.index t (0 : Fin 2) * 256 + 1 * p.val = t.val * 256 + p.val; omega
      | ⟨1, _⟩ => show win0_7.index t (1 : Fin 2) * 1024 + 1 * q.val = q.val; omega)
  rw [hi]
  refine (Block.hid_at (iblk m c 0 t) (iblk m c 1 t) (iblk m c 2 t) (iblk m c 3 t) (iblk m c 4 t) (iblk m c 5 t) (iblk m c 6 t) p q).trans ?_
  unfold hidOf
  rw [hidArr_apply]
  have h0 : ∀ k : Fin 1025, iblk m c 0 t (ix2 p k) = (m ((c : Thread nD τ).loc main_arg0)) (ix2 (⟨t.val * 256 + p.val, by omega⟩ : Fin 8192) k) :=
    fun k => (rd0 m c t p k _ rfl).trans (congrFun (V_main_arg0 m c) _)
  have h1 : ∀ k : Fin 1024, iblk m c 1 t (ix2 p k) = (m ((c : Thread nD τ).loc main_arg1)) (ix2 (⟨t.val * 256 + p.val, by omega⟩ : Fin 8192) k) :=
    fun k => (rd1 m c t p k _ rfl).trans (congrFun (V_main_arg1 m c) _)
  have h2 : ∀ k : Fin 1024, iblk m c 2 t (ix2 p k) = (m ((c : Thread nD τ).loc main_arg2)) (ix2 (⟨t.val * 256 + p.val, by omega⟩ : Fin 8192) k) :=
    fun k => (rd2 m c t p k _ rfl).trans (congrFun (V_main_arg2 m c) _)
  simp only [h0, h1, h2, rd3 m c t, rd4 m c t, rd5 m c t, rd6 m c t]
  have hW5 : (fun (n : Fin 4096) (k : Fin 2048) => V m c main_v4 (ix2 k n)) = fun n k => (m ((c : Thread nD τ).loc main_arg3)) (ix2 n k) :=
    funext fun n => funext fun k => V_v4_at m c k n
  have hW6 : (fun (n : Fin 4096) => V m c main_v5 (ix2 (0 : Fin 1) n)) = fun n => (m ((c : Thread nD τ).loc main_arg4)) (ix1 n) :=
    funext fun n => V_v5_at m c n
  have hW3 : (fun (q : Fin 1024) (k : Fin 1024) => V m c main_v1 (ix2 k q)) = fun q k => (m ((c : Thread nD τ).loc main_arg5)) (ix2 q k) :=
    funext fun q => funext fun k => V_v1_at m c k q
  have hW4 : (fun (q : Fin 1024) => V m c main_v2 (ix2 (0 : Fin 1) q)) = fun q => (m ((c : Thread nD τ).loc main_arg6)) (ix1 q) :=
    funext fun q => V_v2_at m c q
  rw [hW5, hW6, hW3, hW4]

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_0).slice (win0_7.rect t)).set ↔ _
  rw [View.set_slice_whole, Rect.mem_set_unit]
  exact Iff.rfl

/-- Every row of the array lies in the block of the point `row / 256`: the 32 blocks of 256 rows tile the 8192 rows. -/
theorem cover7 (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  have hlt : (i 0).val / 256 < 32 := by omega
  obtain ⟨t, ht⟩ : ∃ t : Fin cfg0.N, t.val = (i 0).val / 256 := ⟨⟨(i 0).val / 256, hlt⟩, rfl⟩
  refine ⟨t, flush0_7 t, ?_⟩
  have ef := idx_facts t
  have e0 : win0_7.index t (0 : Fin 2) = t.val := by omega
  have e1 : win0_7.index t (1 : Fin 2) = 0 := by omega
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- An index of the array is in point `t`'s block iff each coordinate is in the block's range on its axis. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v6_1).slice (win0_8.rect t)).set ↔ _
  rw [View.set_slice_whole, Rect.mem_set_unit]
  exact Iff.rfl

/-- Every row of the array lies in the block of the point `row / 256`: the 32 blocks of 256 rows tile the 8192 rows. -/
theorem cover8 (i : S8192x1024.Idx) :
    ∃ t : Fin cfg0.N, (cfg0.win 8).flush t = true ∧ i ∈ ((cfg0.win 8).blk t).view.set := by
  have h0 : (i 0).val < 8192 := (i 0).isLt
  have h1 : (i 1).val < 1024 := (i 1).isLt
  have hlt : (i 0).val / 256 < 32 := by omega
  obtain ⟨t, ht⟩ : ∃ t : Fin cfg0.N, t.val = (i 0).val / 256 := ⟨⟨(i 0).val / 256, hlt⟩, rfl⟩
  refine ⟨t, flush0_8 t, ?_⟩
  have ef := idx_facts t
  have e0 : win0_8.index t (0 : Fin 2) = t.val := by omega
  have e1 : win0_8.index t (1 : Fin 2) = 0 := by omega
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- After the run the first result array is the next hidden array. -/
theorem final7 (c : Dev nD) : (dats m 0 c).arrAt 7 cfg0.N = hidOf m c :=
  (dats m 0 c).arrAt_eq_of_cover 7 (hidOf m c) (fun t _ => flushed7_eq m c t) cover7

/-- After the run the second result array is the next cell array. -/
theorem final8 (c : Dev nD) : (dats m 0 c).arrAt 8 cfg0.N = cellOf m c :=
  (dats m 0 c).arrAt_eq_of_cover 8 (cellOf m c) (fun t _ => flushed8_eq m c t) cover8

/-- Every weakly fair execution of the kernel program terminates with the two results at the next hidden and cell
    arrays of its arguments, the arguments unchanged. -/
theorem run : θ_run defs (onTc (τ := τ) (main (F := Ideal))) ⟨m, fun _ => 0, ρ⟩ fun r => ∀ c : Dev nD,
      r.2.mem ((c : Thread nD τ).loc main_v6_0) = hidOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Arr

end
-- ==== Proof.RefSpec.lean ====
import proofs.«181083_j60455959659035_2_alg».proof.Proof.Gen.ReferenceIdeal.Read
import proofs.«181083_j60455959659035_2_alg».proof.Proof.SpecArr
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Read Idealize.ShloMosaic Idealize.ShloMosaic.ValueIdx Cert.Tlstm

variable (x0 : (⟨S8192x1025, .f32⟩ : BufTy).Contents (Elt Ideal)) (x1 x2 : (⟨S8192x1024, .f32⟩ : BufTy).Contents (Elt Ideal))
  (x3 : (⟨S4096x2048, .f32⟩ : BufTy).Contents (Elt Ideal)) (x4 : (⟨S4096, .f32⟩ : BufTy).Contents (Elt Ideal))
  (x5 : (⟨S1024x1024, .f32⟩ : BufTy).Contents (Elt Ideal)) (x6 : (⟨S1024, .f32⟩ : BufTy).Contents (Elt Ideal))

/-- The discount of batch row `r`. -/
theorem decay_at (r : Fin 8192) :
    val_main_v6 (F := Ideal) x0 (ix2 r (0 : Fin 1)) = decay (x0 (ix2 r dcol)) := by
  rw [val_main_v6_apply, val_main_v5_apply, val_main_cst_0_apply, val_main_v4_apply, val_main_v3_apply, val_main_v1_apply,
    val_main_v2_apply, val_main_cst_apply]
  have e : idx_main_v1 (ix2 r (0 : Fin 1)) = ix2 r dcol := funext fun a => Fin.ext (by
    match a with
    | ⟨0, _⟩ => rfl
    | ⟨1, _⟩ => rfl)
  rw [e]
  rfl

/-- The short-term memory of batch row `r` at column `c`. -/
theorem shortMem_at (r : Fin 8192) (c : Fin 1024) :
    val_main_v12 (F := Ideal) x1 x5 x6 (ix2 r c)
      = shortMem (fun k => x1 (ix2 r k)) (fun c k => x5 (ix2 c k)) (fun c => x6 (ix1 c)) c := by
  rw [val_main_v12_apply, val_main_v11_apply, val_main_v8_apply, val_main_v10_apply, val_main_v9_apply]
  have eb : idx_main_v9 (idx_main_v10 (ix2 r c)) = ix1 c := funext fun a => Fin.ext (by
    match a with
    | ⟨0, _⟩ => rfl)
  rw [eb]
  have es : ∑ k : Fin 1024, x1 (lidx_main_v8 (ix2 r c) k) * val_main_v7 (F := Ideal) x5 (ridx_main_v8 (ix2 r c) k)
      = ∑ k : Fin 1024, x1 (ix2 r k) * x5 (ix2 c k) := Finset.sum_congr rfl fun k _ => by
    rw [val_main_v7_apply]
    have el : lidx_main_v8 (ix2 r c) k = ix2 r k := funext fun a => Fin.ext (by
      match a with
      | ⟨0, _⟩ => rfl
      | ⟨1, _⟩ => rfl)
    have er : idx_main_v7 (ridx_main_v8 (ix2 r c) k) = ix2 c k := funext fun a => Fin.ext (by
      match a with
      | ⟨0, _⟩ => rfl
      | ⟨1, _⟩ => rfl)
    rw [el, er]
  rw [es]
  rfl

/-- The adjusted hidden entry of batch row `r` at column `c`. -/
theorem adjusted_at (r : Fin 8192) (c : Fin 1024) :
    val_main_v16 (F := Ideal) x0 x1 x5 x6 (ix2 r c)
      = adjusted (x0 (ix2 r dcol)) (fun k => x1 (ix2 r k)) (fun c k => x5 (ix2 c k)) (fun c => x6 (ix1 c)) c := by
  rw [val_main_v16_apply, val_main_v13_apply, val_main_v15_apply, val_main_v14_apply, shortMem_at]
  have e : idx_main_v14 (ix2 r c) = ix2 r (0 : Fin 1) := funext fun a => Fin.ext (by
    match a with
    | ⟨0, _⟩ => rfl
    | ⟨1, _⟩ => rfl)
  rw [e, decay_at]
  rfl

/-- The joined row: its first 1024 entries are the input row. -/
theorem joined_lo (r : Fin 8192) (k : Fin 1024) :
    val_main_v17 (F := Ideal) x0 x1 x5 x6 (ix2 r (lo k)) = x0 (ix2 r (xcol k)) := by
  unfold val_main_v17
  refine (concatenate_pair_apply_left (t := S8192x2048) (s₁ := S8192x1024) (s₂ := S8192x1024) 1 _ _ _
    (ix2 r (lo k)) rfl (ix2 r k) (fun b => by
      match b with
      | ⟨0, _⟩ => rfl
      | ⟨1, _⟩ => rfl)).trans ?_
  rw [val_main_v0_apply]
  exact congrArg x0 (funext fun a => Fin.ext (by
    match a with
    | ⟨0, _⟩ => rfl
    | ⟨1, _⟩ => rfl))

/-- The joined row: its last 1024 entries are the adjusted hidden row. -/
theorem joined_hi (r : Fin 8192) (k : Fin 1024) :
    val_main_v17 (F := Ideal) x0 x1 x5 x6 (ix2 r (hi k)) = val_main_v16 (F := Ideal) x0 x1 x5 x6 (ix2 r k) := by
  unfold val_main_v17
  exact concatenate_pair_apply_right (t := S8192x2048) (s₁ := S8192x1024) (s₂ := S8192x1024) 1 _ _ _
    (ix2 r (hi k)) rfl rfl (ix2 r k) (fun b hb => by
      match b with
      | ⟨0, _⟩ => rfl
      | ⟨1, _⟩ => exact absurd rfl hb)
    (by show k.val + 1024 = 1024 + k.val; omega)

/-- Gate column `n` of batch row `r`: the sum over the joined row, split at the join. -/
theorem gate_at (r : Fin 8192) (n : Fin 4096) :
    val_main_v22 (F := Ideal) x0 x1 x3 x4 x5 x6 (ix2 r n)
      = gate (fun k => x0 (ix2 r (xcol k))) (adjusted (x0 (ix2 r dcol)) (fun k => x1 (ix2 r k)) (fun c k => x5 (ix2 c k)) (fun c => x6 (ix1 c)))
          (fun n k => x3 (ix2 n k)) (fun n => x4 (ix1 n)) n := by
  rw [val_main_v22_apply, val_main_v19_apply, val_main_v21_apply, val_main_v20_apply, sum_join]
  have eb : idx_main_v20 (idx_main_v21 (ix2 r n)) = ix1 n := funext fun a => Fin.ext (by
    match a with
    | ⟨0, _⟩ => rfl)
  rw [eb]
  have e1 : ∑ k : Fin 1024, val_main_v17 (F := Ideal) x0 x1 x5 x6 (lidx_main_v19 (ix2 r n) (lo k)) * val_main_v18 (F := Ideal) x3 (ridx_main_v19 (ix2 r n) (lo k))
      = ∑ k : Fin 1024, x0 (ix2 r (xcol k)) * x3 (ix2 n (lo k)) := Finset.sum_congr rfl fun k _ => by
    have el : lidx_main_v19 (ix2 r n) (lo k) = ix2 r (lo k) := funext fun a => Fin.ext (by
      match a with
      | ⟨0, _⟩ => rfl
      | ⟨1, _⟩ => rfl)
    have er : idx_main_v18 (ridx_main_v19 (ix2 r n) (lo k)) = ix2 n (lo k) := funext fun a => Fin.ext (by
      match a with
      | ⟨0, _⟩ => rfl
      | ⟨1, _⟩ => rfl)
    rw [val_main_v18_apply, el, er, joined_lo]
  have e2 : ∑ k : Fin 1024, val_main_v17 (F := Ideal) x0 x1 x5 x6 (lidx_main_v19 (ix2 r n) (hi k)) * val_main_v18 (F := Ideal) x3 (ridx_main_v19 (ix2 r n) (hi k))
      = ∑ k : Fin 1024, (adjusted (x0 (ix2 r dcol)) (fun k => x1 (ix2 r k)) (fun c k => x5 (ix2 c k)) (fun c => x6 (ix1 c))) k * x3 (ix2 n (hi k)) := Finset.sum_congr rfl fun k _ => by
    have el : lidx_main_v19 (ix2 r n) (hi k) = ix2 r (hi k) := funext fun a => Fin.ext (by
      match a with
      | ⟨0, _⟩ => rfl
      | ⟨1, _⟩ => rfl)
    have er : idx_main_v18 (ridx_main_v19 (ix2 r n) (hi k)) = ix2 n (hi k) := funext fun a => Fin.ext (by
      match a with
      | ⟨0, _⟩ => rfl
      | ⟨1, _⟩ => rfl)
    rw [val_main_v18_apply, el, er, joined_hi, adjusted_at]
  beta_reduce
  rw [e1, e2]
  rfl

/-- The squashing as the reference spells it, with the float word of 1.0 for the two ones. -/
theorem squash (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := logistic_spelt z

/-- The reference's next cell array is the cell function of each batch row. -/
theorem cell_eq : val_main_v48 (F := Ideal) x0 x1 x2 x3 x4 x5 x6 = cellArr x0 x1 x2 (fun n k => x3 (ix2 n k)) (fun n => x4 (ix1 n)) (fun c k => x5 (ix2 c k)) (fun c => x6 (ix1 c)) := by
  funext i
  obtain ⟨r, q, rfl⟩ : ∃ (r : Fin 8192) (q : Fin 1024), i = ix2 r q := ⟨i 0, i 1, eq_ix2 i⟩
  rw [cellArr_apply]
  rw [val_main_v48_apply, val_main_v46_apply, val_main_v47_apply, val_main_v38_apply, val_main_v32_apply, val_main_v45_apply,
    val_main_v37_apply, val_main_cst_4_apply, val_main_v36_apply, val_main_v35_apply, val_main_cst_3_apply, val_main_v34_apply,
    val_main_v33_apply, val_main_v24_apply, val_main_v31_apply, val_main_cst_2_apply, val_main_v30_apply, val_main_v29_apply,
    val_main_cst_1_apply, val_main_v28_apply, val_main_v27_apply, val_main_v23_apply, val_main_v26_apply]
  have e0 : idx_main_v23 (ix2 r q) = ix2 r (gcol 0 q) := funext fun a => Fin.ext (by
    match a with
    | ⟨0, _⟩ => rfl
    | ⟨1, _⟩ => show q.val = 0 * 1024 + q.val; omega)
  have e1 : idx_main_v24 (ix2 r q) = ix2 r (gcol 1 q) := funext fun a => Fin.ext (by
    match a with
    | ⟨0, _⟩ => rfl
    | ⟨1, _⟩ => show 1024 + q.val = 1 * 1024 + q.val; omega)
  have e3 : idx_main_v26 (ix2 r q) = ix2 r (gcol 3 q) := funext fun a => Fin.ext (by
    match a with
    | ⟨0, _⟩ => rfl
    | ⟨1, _⟩ => show 3072 + q.val = 3 * 1024 + q.val; omega)
  rw [e0, e1, e3, gate_at, gate_at, gate_at, squash, squash]
  rfl

/-- The reference's next hidden array is the cell function of each batch row. -/
theorem hid_eq : val_main_v50 (F := Ideal) x0 x1 x2 x3 x4 x5 x6 = hidArr x0 x1 x2 (fun n k => x3 (ix2 n k)) (fun n => x4 (ix1 n)) (fun c k => x5 (ix2 c k)) (fun c => x6 (ix1 c)) := by
  funext i
  obtain ⟨r, q, rfl⟩ : ∃ (r : Fin 8192) (q : Fin 1024), i = ix2 r q := ⟨i 0, i 1, eq_ix2 i⟩
  rw [hidArr_apply, val_main_v50_apply, val_main_v49_apply, cell_eq, cellArr_apply,
    val_main_v44_apply, val_main_v43_apply, val_main_cst_6_apply, val_main_v42_apply, val_main_v41_apply, val_main_cst_5_apply,
    val_main_v40_apply, val_main_v39_apply, val_main_v25_apply]
  have e2 : idx_main_v25 (ix2 r q) = ix2 r (gcol 2 q) := funext fun a => Fin.ext (by
    match a with
    | ⟨0, _⟩ => rfl
    | ⟨1, _⟩ => show 2048 + q.val = 2 * 1024 + q.val; omega)
  rw [e2, gate_at, squash]
  rfl

end Cert.ReferenceIdeal.RefSpec

end
-- ==== Proof.lean ====
/-
  A time-decay gated memory cell: a kernel over 32 blocks of 256 batch rows against its whole-batch reference.

  For every batch row both programs compute, on the extended reals, the discount `T = 1 / log (d + e)` of the elapsed
  time `d`, the short-term memory `s = tanh (h · Wdᵀ + bd)`, the adjusted hidden row `a = h − s + T · s`, the four gate
  columns of `[x, a] · Wlᵀ + bl`, and from them `c' = σ(g₁) · c + σ(g₀) · tanh(g₃)` and `h' = σ(g₂) · tanh(c')`.
  They differ in three ways, none of which changes a value there. The kernel works on blocks of 256 rows with the
  weights resident, and a row of every result depends on the same row of the inputs only, so the blocks of the
  result are blocks of one whole-batch function. The kernel contracts the input row and the adjusted row against the
  upper and lower halves of each weight column separately and adds the two sums, where the reference contracts the
  joined row of 2048 entries once: a finite sum over a joined index set is the sum of the sums over its two parts,
  with no finiteness assumption. The kernel's squashing is the logistic function, the reference spells it
  `1 / (1 + exp (−z))` with the float word of 1.0, which is the number one. A change of float format is the
  identity on the extended reals, and a matrix product into a zero accumulator is the plain sum.

  The three frames are the generated ones (the reference's is its run with the results dropped); no rewrite was
  applied to the kernel's text, so there is nothing to preserve; the value claim sets the kernel's run, with both
  result arrays named as the whole-batch functions of the arguments, beside the reference's run read as the same
  functions.
-/
import proofs.«181083_j60455959659035_2_alg».proof.Defs
import proofs.«181083_j60455959659035_2_alg».proof.Proof.Gen.Kernel
import proofs.«181083_j60455959659035_2_alg».proof.Proof.Gen.Kernel.Skeleton
import proofs.«181083_j60455959659035_2_alg».proof.Proof.Gen.Kernel.Launch
import proofs.«181083_j60455959659035_2_alg».proof.Proof.Gen.Kernel.Points
import proofs.«181083_j60455959659035_2_alg».proof.Proof.Gen.Kernel.Frame
import proofs.«181083_j60455959659035_2_alg».proof.Proof.Gen.KernelIdeal
import proofs.«181083_j60455959659035_2_alg».proof.Proof.Gen.KernelIdeal.Skeleton
import proofs.«181083_j60455959659035_2_alg».proof.Proof.Gen.KernelIdeal.Launch
import proofs.«181083_j60455959659035_2_alg».proof.Proof.Gen.KernelIdeal.Points
import proofs.«181083_j60455959659035_2_alg».proof.Proof.Gen.KernelIdeal.Frame
import proofs.«181083_j60455959659035_2_alg».proof.Proof.Gen.ReferenceIdeal
import proofs.«181083_j60455959659035_2_alg».proof.Proof.Gen.KernelIdeal.Value
import proofs.«181083_j60455959659035_2_alg».proof.Proof.Gen.ReferenceIdeal.Run
import proofs.«181083_j60455959659035_2_alg».proof.Proof.Gen.ReferenceIdeal.Read
import proofs.«181083_j60455959659035_2_alg».proof.Proof.Gen.Pre_finite_inputs
import proofs.«181083_j60455959659035_2_alg».proof.Proof.KernelArray
import proofs.«181083_j60455959659035_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the next hidden and cell arrays of their (agreeing) arguments. -/
theorem algebraic : Cert.algebraic_KernelIdeal_ReferenceIdeal := by
  intro m ρ m' ρ' _ hagree
  refine ⟨fun c => Cert.KernelIdeal.Arr.hidOf m c, fun c => Cert.KernelIdeal.Arr.cellOf m c, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v50_eq, Cert.ReferenceIdeal.RefSpec.hid_eq, a0, a1, a2, a3, a4, a5, a6]
    rfl
  · obtain ⟨a0, a1, a2, a3, a4, a5, a6⟩ := hagree c
    rw [Cert.ReferenceIdeal.Read.val_main_v48_eq, Cert.ReferenceIdeal.RefSpec.cell_eq, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
